-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1 : Shape := ⟨2, ![8192, 1]⟩
abbrev S1 : Shape := ⟨1, ![1]⟩
abbrev S_ : Shape := ⟨0, ![]⟩

class Facts : Prop where
  bcast_S_S8192x1 : S_.BroadcastsInDim S8192x1 (![] : Fin 0 → Fin S8192x1.rank)
  reducesTo_S8192x1_S_d0_1 : S8192x1.ReducesTo [0, 1] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S8192x1 .f32) (main_arg1 : FVec F S8192x1 .f32) (main_arg2 : FVec F S1 .f32) : IVec S_ 1 :=
  let main_v0 : FVec F S8192x1 .f32 := Host.absf main_arg0
  let main_cst : FVec F S_ .f32 := constant S_ .f32 0x7F800000#32
  let main_v1 : FVec F S8192x1 .f32 := broadcastInDim S8192x1 ![] bcast_S_S8192x1 main_cst
  let main_v2 : IVec S8192x1 1 := cmpf .olt main_v0 main_v1
  let main_c : IVec S_ 1 := constantI S_ 1 1#1
  let main_v3 : IVec S_ 1 := (fun x v => Host.reduce IntOp.andi x v reducesTo_S8192x1_S_d0_1 h_S_) main_v2 main_c
  let main_v4 : FVec F S8192x1 .f32 := Host.absf main_arg1
  let main_cst_0 : FVec F S_ .f32 := constant S_ .f32 0x7F800000#32
  let main_v5 : FVec F S8192x1 .f32 := broadcastInDim S8192x1 ![] bcast_S_S8192x1 main_cst_0
  let main_v6 : IVec S8192x1 1 := cmpf .olt main_v4 main_v5
  let main_c_1 : IVec S_ 1 := constantI S_ 1 1#1
  let main_v7 : IVec S_ 1 := (fun x v => Host.reduce IntOp.andi x v reducesTo_S8192x1_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S8192x1 : Shape := ⟨2, ![8192, 1]⟩
abbrev S1 : Shape := ⟨1, ![1]⟩
abbrev S8192 : Shape := ⟨1, ![8192]⟩
abbrev S_ : Shape := ⟨0, ![]⟩
abbrev S8192x4 : Shape := ⟨2, ![8192, 4]⟩
abbrev S1x8192 : Shape := ⟨2, ![1, 8192]⟩
abbrev S4x8192 : Shape := ⟨2, ![4, 8192]⟩
abbrev S8192x8192 : Shape := ⟨2, ![8192, 8192]⟩
abbrev S1024x4 : Shape := ⟨2, ![1024, 4]⟩
abbrev S4x1024 : Shape := ⟨2, ![4, 1024]⟩
abbrev S1024x1024 : Shape := ⟨2, ![1024, 1024]⟩
abbrev S1024x1 : Shape := ⟨2, ![1024, 1]⟩
abbrev S1x1024 : Shape := ⟨2, ![1, 1024]⟩

abbrev nBuf : Space → Nat
  | .hbm => 57
  | .vmem => 6
  | .smem => 0
  | _ => 0

abbrev bufTy : (tb : Table) → Fin (tcTables nBuf tb) → BufTy
  | .hbm, ⟨0, _⟩ => ⟨S8192x1, .f32⟩
  | .hbm, ⟨1, _⟩ => ⟨S8192x1, .f32⟩
  | .hbm, ⟨2, _⟩ => ⟨S1, .f32⟩
  | .hbm, ⟨3, _⟩ => ⟨S8192, .f32⟩
  | .hbm, ⟨4, _⟩ => ⟨S8192, .f32⟩
  | .hbm, ⟨5, _⟩ => ⟨S8192, .f32⟩
  | .hbm, ⟨6, _⟩ => ⟨S8192, .f32⟩
  | .hbm, ⟨7, _⟩ => ⟨S_, .f32⟩
  | .hbm, ⟨8, _⟩ => ⟨S8192, .f32⟩
  | .hbm, ⟨9, _⟩ => ⟨S8192, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S8192, .f32⟩
  | .hbm, ⟨14, _⟩ => ⟨S8192, .f32⟩
  | .hbm, ⟨15, _⟩ => ⟨S8192, .f32⟩
  | .hbm, ⟨16, _⟩ => ⟨S8192, .f32⟩
  | .hbm, ⟨17, _⟩ => ⟨S8192, .f32⟩
  | .hbm, ⟨18, _⟩ => ⟨S_, .f32⟩
  | .hbm, ⟨19, _⟩ => ⟨S8192, .f32⟩
  | .hbm, ⟨20, _⟩ => ⟨S8192, .f32⟩
  | .hbm, ⟨21, _⟩ => ⟨S8192, .f32⟩
  | .hbm, ⟨22, _⟩ => ⟨S8192, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x4, .f32⟩
  | .hbm, ⟨28, _⟩ => ⟨S_, .f32⟩
  | .hbm, ⟨29, _⟩ => ⟨S8192, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S8192, .f32⟩
  | .hbm, ⟨35, _⟩ => ⟨S_, .f32⟩
  | .hbm, ⟨36, _⟩ => ⟨S8192, .f32⟩
  | .hbm, ⟨37, _⟩ => ⟨S8192, .f32⟩
  | .hbm, ⟨38, _⟩ => ⟨S_, .f32⟩
  | .hbm, ⟨39, _⟩ => ⟨S8192, .f32⟩
  | .hbm, ⟨40, _⟩ => ⟨S8192, .f32⟩
  | .hbm, ⟨41, _⟩ => ⟨S8192, .f32⟩
  | .hbm, ⟨42, _⟩ => ⟨S8192, .f32⟩
  | .hbm, ⟨43, _⟩ => ⟨S8192, .f32⟩
  | .hbm, ⟨44, _⟩ => ⟨S_, .f32⟩
  | .hbm, ⟨45, _⟩ => ⟨S8192, .f32⟩
  | .hbm, ⟨46, _⟩ => ⟨S8192, .f32⟩
  | .hbm, ⟨47, _⟩ => ⟨S_, .f32⟩
  | .hbm, ⟨48, _⟩ => ⟨S8192, .f32⟩
  | .hbm, ⟨49, _⟩ => ⟨S8192, .f32⟩
  | .hbm, ⟨50, _⟩ => ⟨S8192, .f32⟩
  | .hbm, ⟨51, _⟩ => ⟨S1x8192, .f32⟩
  | .hbm, ⟨52, _⟩ => ⟨S1x8192, .f32⟩
  | .hbm, ⟨53, _⟩ => ⟨S1x8192, .f32⟩
  | .hbm, ⟨54, _⟩ => ⟨S1x8192, .f32⟩
  | .hbm, ⟨55, _⟩ => ⟨S4x8192, .f32⟩
  | .hbm, ⟨56, _⟩ => ⟨S8192x8192, .f32⟩
  | .local _ .vmem, ⟨0, _⟩ => ⟨S1024x4, .f32⟩
  | .local _ .vmem, ⟨1, _⟩ => ⟨S1024x4, .f32⟩
  | .local _ .vmem, ⟨2, _⟩ => ⟨S4x1024, .f32⟩
  | .local _ .vmem, ⟨3, _⟩ => ⟨S4x1024, .f32⟩
  | .local _ .vmem, ⟨4, _⟩ => ⟨S1024x1024, .f32⟩
  | .local _ .vmem, ⟨5, _⟩ => ⟨S1024x1024, .f32⟩
  | _, _ => ⟨S8192x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_cst_5 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_6 : Ref sig .tc := ⟨.hbm, 44, rfl⟩
abbrev main_v34 : Ref sig .tc := ⟨.hbm, 45, rfl⟩
abbrev main_v35 : Ref sig .tc := ⟨.hbm, 46, rfl⟩
abbrev main_cst_7 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S8192x1_S8192 : S8192x1.ShapeCasts S8192
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x1_S8192x1_S8192x4_d1 : Shape.Concatenates [S8192x1, S8192x1, S8192x1, S8192x1] S8192x4 1
  bcast_S8192_S1x8192_1 : S8192.BroadcastsInDim S1x8192 (![1] : Fin 1 → Fin S1x8192.rank)
  concatenates_S1x8192_S1x8192_S1x8192_S1x8192_S4x8192_d0 : Shape.Concatenates [S1x8192, S1x8192, S1x8192, S1x8192] S4x8192 0
  inb_S1024x4_S1024x4_0_0 : ∀ a, (![0, 0] : Fin 2 → Nat) a + S1024x4.size a ≤ S1024x4.size a
  h_S1024x4 : 0 < S1024x4.numel
  shapeCasts_S1024x4_S1024x4 : S1024x4.ShapeCasts S1024x4
  inb_S4x1024_S4x1024_0_0 : ∀ a, (![0, 0] : Fin 2 → Nat) a + S4x1024.size a ≤ S4x1024.size a
  h_S4x1024 : 0 < S4x1024.numel
  shapeCasts_S4x1024_S4x1024 : S4x1024.ShapeCasts S4x1024
  slices_S1024x4_o0_0_S1024x1 : S1024x4.Slices ![0, 0] S1024x1
  slices_S1024x4_o0_1_S1024x1 : S1024x4.Slices ![0, 1] S1024x1
  slices_S1024x4_o0_2_S1024x1 : S1024x4.Slices ![0, 2] S1024x1
  slices_S1024x4_o0_3_S1024x1 : S1024x4.Slices ![0, 3] S1024x1
  slices_S4x1024_o0_0_S1x1024 : S4x1024.Slices ![0, 0] S1x1024
  slices_S4x1024_o1_0_S1x1024 : S4x1024.Slices ![1, 0] S1x1024
  slices_S4x1024_o2_0_S1x1024 : S4x1024.Slices ![2, 0] S1x1024
  slices_S4x1024_o3_0_S1x1024 : S4x1024.Slices ![3, 0] S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4.size a ≤ S8192x4.size a
  hwx0_0 : ∀ i : grid0.Coords, EltTy.bits .f32 = 32 ∨ (Rect.block (s := S8192x4) S1024x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x1024.size a ≤ S4x8192.size a
  hwx0_1 : ∀ i : grid0.Coords, EltTy.bits .f32 = 32 ∨ (Rect.block (s := S4x8192) S4x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)

variable [Facts₀]

abbrev win0_0 : Pipeline.Window sig grid0 :=
  Pipeline.Window.ofSpec (Memref.whole main_v21) S1024x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v43) S4x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v44) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x1 : Shape := ⟨2, ![8192, 1]⟩
abbrev S1 : Shape := ⟨1, ![1]⟩
abbrev S8192 : Shape := ⟨1, ![8192]⟩
abbrev S1x8192 : Shape := ⟨2, ![1, 8192]⟩
abbrev S_ : Shape := ⟨0, ![]⟩
abbrev S8192x8192 : Shape := ⟨2, ![8192, 8192]⟩

abbrev nBuf : Space → Nat
  | .hbm => 72
  | .vmem => 0
  | .smem => 0
  | _ => 0

abbrev bufTy : (tb : Table) → Fin (tcTables nBuf tb) → BufTy
  | .hbm, ⟨0, _⟩ => ⟨S8192x1, .f32⟩
  | .hbm, ⟨1, _⟩ => ⟨S8192x1, .f32⟩
  | .hbm, ⟨2, _⟩ => ⟨S1, .f32⟩
  | .hbm, ⟨3, _⟩ => ⟨S8192, .f32⟩
  | .hbm, ⟨4, _⟩ => ⟨S8192x1, .f32⟩
  | .hbm, ⟨5, _⟩ => ⟨S8192, .f32⟩
  | .hbm, ⟨6, _⟩ => ⟨S1x8192, .f32⟩
  | .hbm, ⟨7, _⟩ => ⟨S8192x1, .f32⟩
  | .hbm, ⟨8, _⟩ => ⟨S1x8192, .f32⟩
  | .hbm, ⟨9, _⟩ => ⟨S_, .f32⟩
  | .hbm, ⟨10, _⟩ => ⟨S1x8192, .f32⟩
  | .hbm, ⟨11, _⟩ => ⟨S1x8192, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192x8192, .f32⟩
  | .hbm, ⟨29, _⟩ => ⟨S8192x8192, .f32⟩
  | .hbm, ⟨30, _⟩ => ⟨S8192x1, .f32⟩
  | .hbm, ⟨31, _⟩ => ⟨S8192x8192, .f32⟩
  | .hbm, ⟨32, _⟩ => ⟨S8192x8192, .f32⟩
  | .hbm, ⟨33, _⟩ => ⟨S_, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S8192x8192, .f32⟩
  | .hbm, ⟨38, _⟩ => ⟨S_, .f32⟩
  | .hbm, ⟨39, _⟩ => ⟨S8192x8192, .f32⟩
  | .hbm, ⟨40, _⟩ => ⟨S8192x8192, .f32⟩
  | .hbm, ⟨41, _⟩ => ⟨S1x8192, .f32⟩
  | .hbm, ⟨42, _⟩ => ⟨S8192x8192, .f32⟩
  | .hbm, ⟨43, _⟩ => ⟨S8192x8192, .f32⟩
  | .hbm, ⟨44, _⟩ => ⟨S_, .f32⟩
  | .hbm, ⟨45, _⟩ => ⟨S8192x8192, .f32⟩
  | .hbm, ⟨46, _⟩ => ⟨S8192x8192, .f32⟩
  | .hbm, ⟨47, _⟩ => ⟨S8192x8192, .f32⟩
  | .hbm, ⟨48, _⟩ => ⟨S8192x8192, .f32⟩
  | .hbm, ⟨49, _⟩ => ⟨S1x8192, .f32⟩
  | .hbm, ⟨50, _⟩ => ⟨S_, .f32⟩
  | .hbm, ⟨51, _⟩ => ⟨S1x8192, .f32⟩
  | .hbm, ⟨52, _⟩ => ⟨S1x8192, .f32⟩
  | .hbm, ⟨53, _⟩ => ⟨S_, .f32⟩
  | .hbm, ⟨54, _⟩ => ⟨S1x8192, .f32⟩
  | .hbm, ⟨55, _⟩ => ⟨S1x8192, .f32⟩
  | .hbm, ⟨56, _⟩ => ⟨S8192x8192, .f32⟩
  | .hbm, ⟨57, _⟩ => ⟨S8192x8192, .f32⟩
  | .hbm, ⟨58, _⟩ => ⟨S_, .f32⟩
  | .hbm, ⟨59, _⟩ => ⟨S1x8192, .f32⟩
  | .hbm, ⟨60, _⟩ => ⟨S1x8192, .f32⟩
  | .hbm, ⟨61, _⟩ => ⟨S8192x8192, .f32⟩
  | .hbm, ⟨62, _⟩ => ⟨S8192x8192, .f32⟩
  | .hbm, ⟨63, _⟩ => ⟨S8192x8192, .f32⟩
  | .hbm, ⟨64, _⟩ => ⟨S8192x8192, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S8192x8192, .f32⟩
  | .hbm, ⟨70, _⟩ => ⟨S8192x8192, .f32⟩
  | .hbm, ⟨71, _⟩ => ⟨S8192x8192, .f32⟩
  | _, _ => ⟨S8192x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_4 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_5 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_6 : Ref sig .tc := ⟨.hbm, 50, rfl⟩
abbrev main_v40 : Ref sig .tc := ⟨.hbm, 51, rfl⟩
abbrev main_v41 : Ref sig .tc := ⟨.hbm, 52, rfl⟩
abbrev main_cst_7 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_8 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_9 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩

abbrev nD : Nat := 1
abbrev τ : Topo := Topo.v7x

variable {F : FTy → Type} [FloatOps F]

class Facts₀ : Prop where
  shapeCasts_S8192x1_S8192 : S8192x1.ShapeCasts S8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S_S1x8192 : S_.BroadcastsInDim S1x8192 (![] : Fin 0 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  bcast_S_S8192x1 : S_.BroadcastsInDim S8192x1 (![] : Fin 0 → Fin S8192x1.rank)

variable [Facts₀]

class Facts : Prop extends Facts₀ where

variable [Facts]
-- ==== Proof.BitsRegion.lean ====
/-
  The run of the program up to and through its one launch, read at any float instance.

  @main is a stretch of elementwise host operations — the eight factor vectors, stacked into an [8192, 4] array of
  row factors and a [4, 8192] array of column factors — followed by one launch over an 8 × 8 grid. At grid point
  (i, j) the body reads block i of the row factors (1024 × 4) and block j of the column factors (4 × 1024) and
  stores ONE 1024 × 1024 block of the result, covering it; it keeps nothing between points. So after the launch the
  result array is, block by block, the body's value of the two blocks, every other array is as the launch found it,
  and the argument arrays — which no host operation writes — are as they were at the start.
-/
import proofs.«139554_j2559800508493_2_alg».proof.Proof.Gen.Kernel.Launch
import proofs.«139554_j2559800508493_2_alg».proof.Proof.Gen.Kernel.Skeleton
import proofs.«139554_j2559800508493_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the launch -/

/-- What each buffer of a core holds when the launch is entered: the host operations applied, in order, to the
    initial memory. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is its host operations, then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes an argument array: the launch finds each as it was at the start. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))

/-! ## The blocks -/

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The buffer the body reads the row factors from holds block `t` of them at every point, whether the point
    fetched it or an earlier one did (the block index moves only with the first grid coordinate). -/
theorem before_rows {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the column factors. -/
theorem before_cols {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body -/

abbrev rRows : Rect S1024x4 := Rect.unit (s := S1024x4) ![0, 0] S1024x4.size inb_S1024x4_S1024x4_0_0
abbrev rCols : Rect S4x1024 := Rect.unit (s := S4x1024) ![0, 0] S4x1024.size inb_S4x1024_S4x1024_0_0
abbrev rOut : Rect S1024x1024 := Rect.unit (s := S1024x1024) ![0, 0] S1024x1024.size inb_S1024x1024_S1024x1024_0_0

/-- What the body leaves in the result's buffer, from the two blocks it read: its one store, of the whole block. -/
def outBlock (x0 : Vec F S1024x4 .f32) (x1 : Vec F S4x1024 .f32) : Vec F S1024x1024 .f32 :=
  View.canon [⟨rOut, k0_pay1 (View.ld x0 rRows) (View.ld x1 rCols)⟩]

/-- The one store covers the buffer. -/
theorem outCover (p0 : Vec F S1024x1024 .f32) (y : S1024x1024.Idx) :
    ∃ pc ∈ ([⟨rOut, p0⟩] : List (View.Piece (Elt F) S1024x1024 .f32)), y ∈ pc.1.set :=
  View.cover_of_tiled [⟨rOut, p0⟩] S1024x1024.size (by rfl) y

set_option maxHeartbeats 1000000 in
/-- The body on whole buffers — the two inputs' at known contents, the result's at anything — runs to the end with the
    inputs' as they were and the result's at `outBlock` of them: two loads, a load of the result's buffer whose
    value is not used, and the covering store. -/
theorem sound_kernel (c : Dev nD) (E : Set ℕ) (i : grid0.Coords) (arg0 : Memref sig .tc .vmem S1024x4 .f32) (harg0 : arg0.IsWhole)
    (arg1 : Memref sig .tc .vmem S4x1024 .f32) (harg1 : arg1.IsWhole) (arg2 : Memref sig .tc .vmem S1024x1024 .f32) (harg2 : arg2.IsWhole)
    (x0 : Vec F S1024x4 .f32) (x1 : Vec F S4x1024 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (outBlock x0 x1)) -∗ K ⟨⟩))
      ⊢ wp frame (wpE (defs₀ (F := F)) Variants.none c none) E (cc0__kernel i arg0 harg0 arg1 harg1 arg2 harg2) K := by
  simp only [cc0__kernel_eq_skeleton]; unfold cc0__kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (outCover _)

/-! ## The launch's proof data -/

/-- On core `c`: the arrays as the launch finds them; after the body at point `t` each input's buffer at its block
    and the result's at `outBlock` of the two blocks; nothing else is kept. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_rows (c : Dev nD) (t : Fin cfg0.N) : (dats m 0 c).after 0 t = iblk m c 0 t := by dsimp only [dats]
theorem after_cols (c : Dev nD) (t : Fin cfg0.N) : (dats m 0 c).after 1 t = iblk m c 1 t := by dsimp only [dats]
theorem after_out (c : Dev nD) (t : Fin cfg0.N) : (dats m 0 c).after 2 t = outBlock (iblk m c 0 t) (iblk m c 1 t) := by dsimp only [dats]

theorem before0 (c : Dev nD) (t : Fin cfg0.N) (d) : (dats m 0 c).before 0 t d = iblk m c 0 t :=
  before_rows m (dats m 0 c) (A_eq m c 0) (after_rows m c) t d
theorem before1 (c : Dev nD) (t : Fin cfg0.N) (d) : (dats m 0 c).before 1 t d = iblk m c 1 t :=
  before_cols m (dats m 0 c) (A_eq m c 1) (after_cols m c) t d

/-! ## The body at a grid point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- At any point the inputs' buffers hold their blocks, so the body's triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after_rows, after_cols, after_out]
  iintro ⟨HΦ, Ho, ⟨%d0, H0⟩, ⟨%d1, H1⟩, ⟨%d2, H2⟩⟩
  iapply (sound_kernel c Set.univ _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of @main terminates, and at its end the result array
    holds what the points wrote back, block by block, and every other unscoped buffer what the launch found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The argument arrays end as they started: none is staged by the launch and no host operation writes one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) (run_main m ρ)

end Cert.Kernel.Region

end
-- ==== Proof.IdealRegion.lean ====
/-
  The run of the program up to and through its one launch, read at any float instance.

  @main is a stretch of elementwise host operations — the eight factor vectors, stacked into an [8192, 4] array of
  row factors and a [4, 8192] array of column factors — followed by one launch over an 8 × 8 grid. At grid point
  (i, j) the body reads block i of the row factors (1024 × 4) and block j of the column factors (4 × 1024) and
  stores ONE 1024 × 1024 block of the result, covering it; it keeps nothing between points. So after the launch the
  result array is, block by block, the body's value of the two blocks, every other array is as the launch found it,
  and the argument arrays — which no host operation writes — are as they were at the start.
-/
import proofs.«139554_j2559800508493_2_alg».proof.Proof.Gen.KernelIdeal.Launch
import proofs.«139554_j2559800508493_2_alg».proof.Proof.Gen.KernelIdeal.Skeleton
import proofs.«139554_j2559800508493_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the launch -/

/-- What each buffer of a core holds when the launch is entered: the host operations applied, in order, to the
    initial memory. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is its host operations, then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes an argument array: the launch finds each as it was at the start. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))

/-! ## The blocks -/

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The buffer the body reads the row factors from holds block `t` of them at every point, whether the point
    fetched it or an earlier one did (the block index moves only with the first grid coordinate). -/
theorem before_rows {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the column factors. -/
theorem before_cols {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body -/

abbrev rRows : Rect S1024x4 := Rect.unit (s := S1024x4) ![0, 0] S1024x4.size inb_S1024x4_S1024x4_0_0
abbrev rCols : Rect S4x1024 := Rect.unit (s := S4x1024) ![0, 0] S4x1024.size inb_S4x1024_S4x1024_0_0
abbrev rOut : Rect S1024x1024 := Rect.unit (s := S1024x1024) ![0, 0] S1024x1024.size inb_S1024x1024_S1024x1024_0_0

/-- What the body leaves in the result's buffer, from the two blocks it read: its one store, of the whole block. -/
def outBlock (x0 : Vec F S1024x4 .f32) (x1 : Vec F S4x1024 .f32) : Vec F S1024x1024 .f32 :=
  View.canon [⟨rOut, k0_pay1 (View.ld x0 rRows) (View.ld x1 rCols)⟩]

/-- The one store covers the buffer. -/
theorem outCover (p0 : Vec F S1024x1024 .f32) (y : S1024x1024.Idx) :
    ∃ pc ∈ ([⟨rOut, p0⟩] : List (View.Piece (Elt F) S1024x1024 .f32)), y ∈ pc.1.set :=
  View.cover_of_tiled [⟨rOut, p0⟩] S1024x1024.size (by rfl) y

set_option maxHeartbeats 1000000 in
/-- The body on whole buffers — the two inputs' at known contents, the result's at anything — runs to the end with the
    inputs' as they were and the result's at `outBlock` of them: two loads, a load of the result's buffer whose
    value is not used, and the covering store. -/
theorem sound_kernel (c : Dev nD) (E : Set ℕ) (i : grid0.Coords) (arg0 : Memref sig .tc .vmem S1024x4 .f32) (harg0 : arg0.IsWhole)
    (arg1 : Memref sig .tc .vmem S4x1024 .f32) (harg1 : arg1.IsWhole) (arg2 : Memref sig .tc .vmem S1024x1024 .f32) (harg2 : arg2.IsWhole)
    (x0 : Vec F S1024x4 .f32) (x1 : Vec F S4x1024 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (outBlock x0 x1)) -∗ K ⟨⟩))
      ⊢ wp frame (wpE (defs₀ (F := F)) Variants.none c none) E (cc0__kernel i arg0 harg0 arg1 harg1 arg2 harg2) K := by
  simp only [cc0__kernel_eq_skeleton]; unfold cc0__kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (outCover _)

/-! ## The launch's proof data -/

/-- On core `c`: the arrays as the launch finds them; after the body at point `t` each input's buffer at its block
    and the result's at `outBlock` of the two blocks; nothing else is kept. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_rows (c : Dev nD) (t : Fin cfg0.N) : (dats m 0 c).after 0 t = iblk m c 0 t := by dsimp only [dats]
theorem after_cols (c : Dev nD) (t : Fin cfg0.N) : (dats m 0 c).after 1 t = iblk m c 1 t := by dsimp only [dats]
theorem after_out (c : Dev nD) (t : Fin cfg0.N) : (dats m 0 c).after 2 t = outBlock (iblk m c 0 t) (iblk m c 1 t) := by dsimp only [dats]

theorem before0 (c : Dev nD) (t : Fin cfg0.N) (d) : (dats m 0 c).before 0 t d = iblk m c 0 t :=
  before_rows m (dats m 0 c) (A_eq m c 0) (after_rows m c) t d
theorem before1 (c : Dev nD) (t : Fin cfg0.N) (d) : (dats m 0 c).before 1 t d = iblk m c 1 t :=
  before_cols m (dats m 0 c) (A_eq m c 1) (after_cols m c) t d

/-! ## The body at a grid point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- At any point the inputs' buffers hold their blocks, so the body's triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after_rows, after_cols, after_out]
  iintro ⟨HΦ, Ho, ⟨%d0, H0⟩, ⟨%d1, H1⟩, ⟨%d2, H2⟩⟩
  iapply (sound_kernel c Set.univ _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of @main terminates, and at its end the result array
    holds what the points wrote back, block by block, and every other unscoped buffer what the launch found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The argument arrays end as they started: none is staged by the launch and no host operation writes one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) (run_main m ρ)

end Cert.KernelIdeal.Region

end
-- ==== Proof.Formula.lean ====
/-
  The two formulas, as functions of one row coordinate x and one column coordinate y on the extended reals.

  With u = exp(-(x² + 2y² + 1)) the reference computes, at entry (r, q) with x = qx1[r], y = qx2[q],
      -((du11 + du22)·(1 + 2y²) + 4y·du2) + (1 + x²)·u,
      du2 = -u·4·y,  du11 = u²·4·x² - u·2,  du22 = u²·16·y² - u·4.
  The kernel splits u = ex·ey with ex = exp(-(x² + 1)), ey = exp(-2y²) and computes
      -(p1·q1 + p2·q2) + r1·s1 + r2·s2
  from row factors p1 = 4x²·ex², p2 = ex², r1 = ex, r2 = x²·ex and column factors
  q1 = ey²·(1 + 2y²), q2 = ey²·(16y² + 32y⁴), s1 = ey·(7 + 28y²), s2 = ey.
  Expanding the reference: -(u²·(4x² + 16y²) - 6u)·(1 + 2y²) + 16y²·u + (1 + x²)·u
    = -u²·(4x²·(1 + 2y²) + 16y² + 32y⁴) + u·(7 + 28y²) + x²·u, which is the kernel's sum with u = ex·ey.
  The expansion uses distributivity and exp(a + b) = exp a · exp b, so it is stated for REAL x and y.
  Each formula is spelt in the order its program applies its operations, constants as the words the programs print.
-/
import Idealize.ShloMosaic.PureOps.Ideal
import Idealize.ShloMosaic.PureOps.Ideal.Laws

noncomputable section

namespace Cert.Formula

open Idealize.ShloMosaic

/-! ## The constants -/

abbrev w0 : EReal := Ideal.ofBits .f32 0x00000000#32
abbrev w1 : EReal := Ideal.ofBits .f32 0x3F800000#32
abbrev w2 : EReal := Ideal.ofBits .f32 0x40000000#32
abbrev wm2 : EReal := Ideal.ofBits .f32 0xC0000000#32
abbrev w4 : EReal := Ideal.ofBits .f32 0x40800000#32
abbrev w7 : EReal := Ideal.ofBits .f32 0x40E00000#32
abbrev w16 : EReal := Ideal.ofBits .f32 0x41800000#32
abbrev w28 : EReal := Ideal.ofBits .f32 0x41E00000#32
abbrev w32 : EReal := Ideal.ofBits .f32 0x42000000#32

theorem w0_eq : w0 = ((0 : ℝ) : EReal) := by simp [Ideal.ofBits, Ideal.ieee]
theorem w1_eq : w1 = ((1 : ℝ) : EReal) := by simp [Ideal.ofBits, Ideal.ieee, -EReal.coe_mul]; norm_num
theorem w2_eq : w2 = ((2 : ℝ) : EReal) := by simp [Ideal.ofBits, Ideal.ieee, -EReal.coe_mul]; norm_num
theorem wm2_eq : wm2 = ((-2 : ℝ) : EReal) := by simp [Ideal.ofBits, Ideal.ieee, -EReal.coe_mul]; norm_num
theorem w4_eq : w4 = ((4 : ℝ) : EReal) := by simp [Ideal.ofBits, Ideal.ieee, -EReal.coe_mul]; norm_num
theorem w7_eq : w7 = ((7 : ℝ) : EReal) := by simp [Ideal.ofBits, Ideal.ieee, -EReal.coe_mul]; norm_num
theorem w16_eq : w16 = ((16 : ℝ) : EReal) := by simp [Ideal.ofBits, Ideal.ieee, -EReal.coe_mul]; norm_num
theorem w28_eq : w28 = ((28 : ℝ) : EReal) := by simp [Ideal.ofBits, Ideal.ieee, -EReal.coe_mul]; norm_num
theorem w32_eq : w32 = ((32 : ℝ) : EReal) := by simp [Ideal.ofBits, Ideal.ieee, -EReal.coe_mul]; norm_num

/-! ## The kernel's factors and sum -/

def ex (x : EReal) : EReal := Ideal.exp (-(x * x + w1))
def ey (y : EReal) : EReal := Ideal.exp (wm2 * (y * y))

def p1 (x : EReal) : EReal := w4 * (x * x) * (ex x * ex x)
def p2 (x : EReal) : EReal := ex x * ex x
def r1 (x : EReal) : EReal := ex x
def r2 (x : EReal) : EReal := x * x * ex x

def q1 (y : EReal) : EReal := ey y * ey y * (w1 + w2 * (y * y))
def q2 (y : EReal) : EReal := ey y * ey y * (w16 * (y * y) + w32 * (y * y) * (y * y))
def s1 (y : EReal) : EReal := ey y * (w7 + w28 * (y * y))
def s2 (y : EReal) : EReal := ey y

/-- The body's sum of the four products, from the factors' values. -/
def combine (a0 a1 a2 a3 b0 b1 b2 b3 : EReal) : EReal := w0 - (a0 * b0 + a1 * b1) + a2 * b2 + a3 * b3

/-- The kernel's value at row coordinate x and column coordinate y. -/
def kform (x y : EReal) : EReal := combine (p1 x) (p2 x) (r1 x) (r2 x) (q1 y) (q2 y) (s1 y) (s2 y)

/-! ## The reference's expression -/

def uu (x y : EReal) : EReal := Ideal.exp (-(x * x + w2 * (y * y) + w1))
def du2 (x y : EReal) : EReal := -(uu x y) * w4 * y
def du11 (x y : EReal) : EReal := uu x y * uu x y * w4 * (x * x) - uu x y * w2
def du22 (x y : EReal) : EReal := uu x y * uu x y * w16 * (y * y) - uu x y * w4

/-- The reference's value at row coordinate x and column coordinate y. -/
def rform (x y : EReal) : EReal :=
  -((du11 x y + du22 x y) * (w1 + w2 * (y * y)) + w4 * y * du2 x y) + (w1 + x * x) * uu x y

/-! ## The two agree at real coordinates -/

/-- exp(-(x² + 2y² + 1)) = exp(-(x² + 1)) · exp(-2y²), and the rest is a polynomial identity in x, y and the two
    exponentials. -/
theorem kform_eq_rform (x y : ℝ) : kform (x : EReal) (y : EReal) = rform (x : EReal) (y : EReal) := by
  have hu : Real.exp (-(x * x + 2 * (y * y) + 1)) = Real.exp (-(x * x + 1)) * Real.exp (-2 * (y * y)) := by
    rw [← Real.exp_add]; congr 1; ring
  have key : (0 : ℝ) - (4 * (x * x) * (Real.exp (-(x * x + 1)) * Real.exp (-(x * x + 1))) * (Real.exp (-2 * (y * y)) * Real.exp (-2 * (y * y)) * (1 + 2 * (y * y)))
        + Real.exp (-(x * x + 1)) * Real.exp (-(x * x + 1)) * (Real.exp (-2 * (y * y)) * Real.exp (-2 * (y * y)) * (16 * (y * y) + 32 * (y * y) * (y * y))))
        + Real.exp (-(x * x + 1)) * (Real.exp (-2 * (y * y)) * (7 + 28 * (y * y)))
        + x * x * Real.exp (-(x * x + 1)) * Real.exp (-2 * (y * y))
      = -((Real.exp (-(x * x + 2 * (y * y) + 1)) * Real.exp (-(x * x + 2 * (y * y) + 1)) * 4 * (x * x) - Real.exp (-(x * x + 2 * (y * y) + 1)) * 2
            + (Real.exp (-(x * x + 2 * (y * y) + 1)) * Real.exp (-(x * x + 2 * (y * y) + 1)) * 16 * (y * y) - Real.exp (-(x * x + 2 * (y * y) + 1)) * 4))
            * (1 + 2 * (y * y))
          + 4 * y * (-(Real.exp (-(x * x + 2 * (y * y) + 1))) * 4 * y))
        + (1 + x * x) * Real.exp (-(x * x + 2 * (y * y) + 1)) := by
    rw [hu]; ring
  simp only [kform, rform, combine, p1, p2, r1, r2, q1, q2, s1, s2, ex, ey, uu, du2, du11, du22,
    w0_eq, w1_eq, w2_eq, wm2_eq, w4_eq, w7_eq, w16_eq, w28_eq, w32_eq]
  simp only [← EReal.coe_mul, ← EReal.coe_add, ← EReal.coe_neg, ← EReal.coe_sub, Ideal.exp_coe]
  exact congrArg _ key

end Cert.Formula

end
-- ==== Proof.LibFactorLayout.lean ====
/-
  Layout operations between a vector of length n, an [n, 1] column, a [1, n] row, an [n, 4] stack of four columns, a
  [4, n] stack of four rows and an [m, n] array, each read at an index given by its coordinates.

  A reshape [n, 1] → [n] keeps position r; a broadcast [n] → [n, 1] or [n] → [1, n] reads the vector at the long
  coordinate; a concatenation of four [n, 1] columns along axis 1 (of four [1, n] rows along axis 0) reads piece k at
  the same long coordinate; a unit-width slice of an [n, 4] ([4, n]) array at offset k reads column (row) k; a
  broadcast of an [m, 1] column (a [1, n] row) to [m, n] reads the column at the row coordinate (the row at the column
  coordinate).
-/
import Idealize.ShloMosaic.Lib.Pipeline.Value
import Idealize.ShloMosaic.Lib.ValueIdx

namespace Cert.LibFactorLayout

open Idealize.ShloMosaic Idealize.ShloMosaic.ValueIdx

variable {α : Type}

/-- A reshape [n, 1] → [n] read at r is the operand at (r, 0). -/
theorem reshape_at {n : Nat} (x : (⟨2, ![n, 1]⟩ : Shape).Idx → α) (h : (⟨2, ![n, 1]⟩ : Shape).ShapeCasts ⟨1, ![n]⟩) (r : Fin n) :
    shapeCast (⟨1, ![n]⟩ : Shape) x h (ix1 r) = x (ix2 r 0) :=
  shapeCast_apply x h (ix1 r) (ix2 r 0)
    (by rw [Shape.rowMajor_val_two, Shape.rowMajor_val_one]; show r.val * 1 + 0 = r.val; omega)

/-- A scalar broadcast to a vector, read anywhere, is the scalar. -/
theorem splat_at {n : Nat} (s : (⟨0, ![]⟩ : Shape).Idx → α) (h : (⟨0, ![]⟩ : Shape).BroadcastsInDim ⟨1, ![n]⟩ (![] : Fin 0 → Fin 1))
    (i : (⟨1, ![n]⟩ : Shape).Idx) :
    broadcastInDim (⟨1, ![n]⟩ : Shape) ![] h s i = s (fun a => a.elim0) :=
  broadcastInDim_apply _ h s i (fun a => a.elim0) (fun a => a.elim0)

/-- A vector laid out as an [n, 1] column, read at (r, ·), is the vector at r. -/
theorem asCol_at {n : Nat} (hn : n ≠ 1) (v : (⟨1, ![n]⟩ : Shape).Idx → α)
    (h : (⟨1, ![n]⟩ : Shape).BroadcastsInDim ⟨2, ![n, 1]⟩ (![0] : Fin 1 → Fin 2)) (r : Fin n) (z : Fin 1) :
    broadcastInDim (⟨2, ![n, 1]⟩ : Shape) ![0] h v (ix2 r z) = v (ix1 r) :=
  broadcastInDim_apply _ h v (ix2 r z) (ix1 r) (fun a => match a with
    | ⟨0, _⟩ => by show r.val = if n = 1 then 0 else r.val; rw [if_neg hn])

/-- A vector laid out as a [1, n] row, read at (·, q), is the vector at q. -/
theorem asRow_at {n : Nat} (hn : n ≠ 1) (v : (⟨1, ![n]⟩ : Shape).Idx → α)
    (h : (⟨1, ![n]⟩ : Shape).BroadcastsInDim ⟨2, ![1, n]⟩ (![1] : Fin 1 → Fin 2)) (z : Fin 1) (q : Fin n) :
    broadcastInDim (⟨2, ![1, n]⟩ : Shape) ![1] h v (ix2 z q) = v (ix1 q) :=
  broadcastInDim_apply _ h v (ix2 z q) (ix1 q) (fun a => match a with
    | ⟨0, _⟩ => by show q.val = if n = 1 then 0 else q.val; rw [if_neg hn])

/-- Four [n, 1] columns stacked side by side: column k of the stack at row r is piece k at (r, 0). -/
theorem stackCols_at {n : Nat} (u0 u1 u2 u3 : (⟨2, ![n, 1]⟩ : Shape).Idx → α)
    (h : Shape.Concatenates [(⟨2, ![n, 1]⟩ : Shape), ⟨2, ![n, 1]⟩, ⟨2, ![n, 1]⟩, ⟨2, ![n, 1]⟩] ⟨2, ![n, 4]⟩ 1) (r : Fin n) (k : Fin 4) :
    concatenate (⟨2, ![n, 4]⟩ : Shape) 1 [⟨⟨2, ![n, 1]⟩, u0⟩, ⟨⟨2, ![n, 1]⟩, u1⟩, ⟨⟨2, ![n, 1]⟩, u2⟩, ⟨⟨2, ![n, 1]⟩, u3⟩] h (ix2 r k)
      = (![u0, u1, u2, u3] k) (ix2 r 0) := by
  have hi : ∀ b : Fin 2, b.cast (rfl : (2 : Nat) = 2) ≠ (1 : Fin 2) → ((ix2 r (0 : Fin 1)) b).val = ((ix2 r k) (b.cast rfl)).val := fun b hb =>
    match b, hb with
    | ⟨0, _⟩, _ => rfl
    | ⟨1, _⟩, hb => absurd rfl hb
  let xs : List ((s : Shape) × (s.Idx → α)) := [⟨⟨2, ![n, 1]⟩, u0⟩, ⟨⟨2, ![n, 1]⟩, u1⟩, ⟨⟨2, ![n, 1]⟩, u2⟩, ⟨⟨2, ![n, 1]⟩, u3⟩]
  match k with
  | ⟨0, _⟩ => exact concatenate_apply_piece 1 xs h (ix2 r 0) 0 (by show (0 : Nat) < 4; omega) ⟨2, ![n, 1]⟩ u0 rfl rfl 0 rfl (ix2 r 0) hi rfl
  | ⟨1, _⟩ => exact concatenate_apply_piece 1 xs h (ix2 r 1) 1 (by show (1 : Nat) < 4; omega) ⟨2, ![n, 1]⟩ u1 rfl rfl 1 rfl (ix2 r 0) hi rfl
  | ⟨2, _⟩ => exact concatenate_apply_piece 1 xs h (ix2 r 2) 2 (by show (2 : Nat) < 4; omega) ⟨2, ![n, 1]⟩ u2 rfl rfl 2 rfl (ix2 r 0) hi rfl
  | ⟨3, _⟩ => exact concatenate_apply_piece 1 xs h (ix2 r 3) 3 (by show (3 : Nat) < 4; omega) ⟨2, ![n, 1]⟩ u3 rfl rfl 3 rfl (ix2 r 0) hi rfl

/-- Four [1, n] rows stacked one above the other: row k of the stack at column q is piece k at (0, q). -/
theorem stackRows_at {n : Nat} (u0 u1 u2 u3 : (⟨2, ![1, n]⟩ : Shape).Idx → α)
    (h : Shape.Concatenates [(⟨2, ![1, n]⟩ : Shape), ⟨2, ![1, n]⟩, ⟨2, ![1, n]⟩, ⟨2, ![1, n]⟩] ⟨2, ![4, n]⟩ 0) (k : Fin 4) (q : Fin n) :
    concatenate (⟨2, ![4, n]⟩ : Shape) 0 [⟨⟨2, ![1, n]⟩, u0⟩, ⟨⟨2, ![1, n]⟩, u1⟩, ⟨⟨2, ![1, n]⟩, u2⟩, ⟨⟨2, ![1, n]⟩, u3⟩] h (ix2 k q)
      = (![u0, u1, u2, u3] k) (ix2 0 q) := by
  have hi : ∀ b : Fin 2, b.cast (rfl : (2 : Nat) = 2) ≠ (0 : Fin 2) → ((ix2 (0 : Fin 1) q) b).val = ((ix2 k q) (b.cast rfl)).val := fun b hb =>
    match b, hb with
    | ⟨0, _⟩, hb => absurd rfl hb
    | ⟨1, _⟩, _ => rfl
  let xs : List ((s : Shape) × (s.Idx → α)) := [⟨⟨2, ![1, n]⟩, u0⟩, ⟨⟨2, ![1, n]⟩, u1⟩, ⟨⟨2, ![1, n]⟩, u2⟩, ⟨⟨2, ![1, n]⟩, u3⟩]
  match k with
  | ⟨0, _⟩ => exact concatenate_apply_piece 0 xs h (ix2 0 q) 0 (by show (0 : Nat) < 4; omega) ⟨2, ![1, n]⟩ u0 rfl rfl 0 rfl (ix2 0 q) hi rfl
  | ⟨1, _⟩ => exact concatenate_apply_piece 0 xs h (ix2 1 q) 1 (by show (1 : Nat) < 4; omega) ⟨2, ![1, n]⟩ u1 rfl rfl 1 rfl (ix2 0 q) hi rfl
  | ⟨2, _⟩ => exact concatenate_apply_piece 0 xs h (ix2 2 q) 2 (by show (2 : Nat) < 4; omega) ⟨2, ![1, n]⟩ u2 rfl rfl 2 rfl (ix2 0 q) hi rfl
  | ⟨3, _⟩ => exact concatenate_apply_piece 0 xs h (ix2 3 q) 3 (by show (3 : Nat) < 4; omega) ⟨2, ![1, n]⟩ u3 rfl rfl 3 rfl (ix2 0 q) hi rfl

theorem stackCols_at0 {n : Nat} (u0 u1 u2 u3 : (⟨2, ![n, 1]⟩ : Shape).Idx → α)
    (h : Shape.Concatenates [(⟨2, ![n, 1]⟩ : Shape), ⟨2, ![n, 1]⟩, ⟨2, ![n, 1]⟩, ⟨2, ![n, 1]⟩] ⟨2, ![n, 4]⟩ 1) (r : Fin n) :
    concatenate (⟨2, ![n, 4]⟩ : Shape) 1 [⟨⟨2, ![n, 1]⟩, u0⟩, ⟨⟨2, ![n, 1]⟩, u1⟩, ⟨⟨2, ![n, 1]⟩, u2⟩, ⟨⟨2, ![n, 1]⟩, u3⟩] h (ix2 r 0)
      = u0 (ix2 r 0) := stackCols_at u0 u1 u2 u3 h r 0
theorem stackRows_at0 {n : Nat} (u0 u1 u2 u3 : (⟨2, ![1, n]⟩ : Shape).Idx → α)
    (h : Shape.Concatenates [(⟨2, ![1, n]⟩ : Shape), ⟨2, ![1, n]⟩, ⟨2, ![1, n]⟩, ⟨2, ![1, n]⟩] ⟨2, ![4, n]⟩ 0) (q : Fin n) :
    concatenate (⟨2, ![4, n]⟩ : Shape) 0 [⟨⟨2, ![1, n]⟩, u0⟩, ⟨⟨2, ![1, n]⟩, u1⟩, ⟨⟨2, ![1, n]⟩, u2⟩, ⟨⟨2, ![1, n]⟩, u3⟩] h (ix2 0 q)
      = u0 (ix2 0 q) := stackRows_at u0 u1 u2 u3 h 0 q
theorem stackCols_at1 {n : Nat} (u0 u1 u2 u3 : (⟨2, ![n, 1]⟩ : Shape).Idx → α)
    (h : Shape.Concatenates [(⟨2, ![n, 1]⟩ : Shape), ⟨2, ![n, 1]⟩, ⟨2, ![n, 1]⟩, ⟨2, ![n, 1]⟩] ⟨2, ![n, 4]⟩ 1) (r : Fin n) :
    concatenate (⟨2, ![n, 4]⟩ : Shape) 1 [⟨⟨2, ![n, 1]⟩, u0⟩, ⟨⟨2, ![n, 1]⟩, u1⟩, ⟨⟨2, ![n, 1]⟩, u2⟩, ⟨⟨2, ![n, 1]⟩, u3⟩] h (ix2 r 1)
      = u1 (ix2 r 0) := stackCols_at u0 u1 u2 u3 h r 1
theorem stackRows_at1 {n : Nat} (u0 u1 u2 u3 : (⟨2, ![1, n]⟩ : Shape).Idx → α)
    (h : Shape.Concatenates [(⟨2, ![1, n]⟩ : Shape), ⟨2, ![1, n]⟩, ⟨2, ![1, n]⟩, ⟨2, ![1, n]⟩] ⟨2, ![4, n]⟩ 0) (q : Fin n) :
    concatenate (⟨2, ![4, n]⟩ : Shape) 0 [⟨⟨2, ![1, n]⟩, u0⟩, ⟨⟨2, ![1, n]⟩, u1⟩, ⟨⟨2, ![1, n]⟩, u2⟩, ⟨⟨2, ![1, n]⟩, u3⟩] h (ix2 1 q)
      = u1 (ix2 0 q) := stackRows_at u0 u1 u2 u3 h 1 q
theorem stackCols_at2 {n : Nat} (u0 u1 u2 u3 : (⟨2, ![n, 1]⟩ : Shape).Idx → α)
    (h : Shape.Concatenates [(⟨2, ![n, 1]⟩ : Shape), ⟨2, ![n, 1]⟩, ⟨2, ![n, 1]⟩, ⟨2, ![n, 1]⟩] ⟨2, ![n, 4]⟩ 1) (r : Fin n) :
    concatenate (⟨2, ![n, 4]⟩ : Shape) 1 [⟨⟨2, ![n, 1]⟩, u0⟩, ⟨⟨2, ![n, 1]⟩, u1⟩, ⟨⟨2, ![n, 1]⟩, u2⟩, ⟨⟨2, ![n, 1]⟩, u3⟩] h (ix2 r 2)
      = u2 (ix2 r 0) := stackCols_at u0 u1 u2 u3 h r 2
theorem stackRows_at2 {n : Nat} (u0 u1 u2 u3 : (⟨2, ![1, n]⟩ : Shape).Idx → α)
    (h : Shape.Concatenates [(⟨2, ![1, n]⟩ : Shape), ⟨2, ![1, n]⟩, ⟨2, ![1, n]⟩, ⟨2, ![1, n]⟩] ⟨2, ![4, n]⟩ 0) (q : Fin n) :
    concatenate (⟨2, ![4, n]⟩ : Shape) 0 [⟨⟨2, ![1, n]⟩, u0⟩, ⟨⟨2, ![1, n]⟩, u1⟩, ⟨⟨2, ![1, n]⟩, u2⟩, ⟨⟨2, ![1, n]⟩, u3⟩] h (ix2 2 q)
      = u2 (ix2 0 q) := stackRows_at u0 u1 u2 u3 h 2 q
theorem stackCols_at3 {n : Nat} (u0 u1 u2 u3 : (⟨2, ![n, 1]⟩ : Shape).Idx → α)
    (h : Shape.Concatenates [(⟨2, ![n, 1]⟩ : Shape), ⟨2, ![n, 1]⟩, ⟨2, ![n, 1]⟩, ⟨2, ![n, 1]⟩] ⟨2, ![n, 4]⟩ 1) (r : Fin n) :
    concatenate (⟨2, ![n, 4]⟩ : Shape) 1 [⟨⟨2, ![n, 1]⟩, u0⟩, ⟨⟨2, ![n, 1]⟩, u1⟩, ⟨⟨2, ![n, 1]⟩, u2⟩, ⟨⟨2, ![n, 1]⟩, u3⟩] h (ix2 r 3)
      = u3 (ix2 r 0) := stackCols_at u0 u1 u2 u3 h r 3
theorem stackRows_at3 {n : Nat} (u0 u1 u2 u3 : (⟨2, ![1, n]⟩ : Shape).Idx → α)
    (h : Shape.Concatenates [(⟨2, ![1, n]⟩ : Shape), ⟨2, ![1, n]⟩, ⟨2, ![1, n]⟩, ⟨2, ![1, n]⟩] ⟨2, ![4, n]⟩ 0) (q : Fin n) :
    concatenate (⟨2, ![4, n]⟩ : Shape) 0 [⟨⟨2, ![1, n]⟩, u0⟩, ⟨⟨2, ![1, n]⟩, u1⟩, ⟨⟨2, ![1, n]⟩, u2⟩, ⟨⟨2, ![1, n]⟩, u3⟩] h (ix2 3 q)
      = u3 (ix2 0 q) := stackRows_at u0 u1 u2 u3 h 3 q

/-- The unit-width slice of an [m, 4] array at column offset k, read at (a, ·), is the array at (a, k). -/
theorem sliceCol_at {m : Nat} (k : Fin 4) (x : (⟨2, ![m, 4]⟩ : Shape).Idx → α)
    (h : (⟨2, ![m, 4]⟩ : Shape).Slices ![0, k.val] ⟨2, ![m, 1]⟩) (a : Fin m) (z : Fin 1) :
    extractStridedSlice (⟨2, ![m, 1]⟩ : Shape) ![0, k.val] x h (ix2 a z) = x (ix2 a k) :=
  extractStridedSlice_apply _ x h (ix2 a z) (ix2 a k) (fun b => match b with
    | ⟨0, _⟩ => by show a.val = 0 + a.val; omega
    | ⟨1, _⟩ => by show k.val = k.val + z.val; omega)

/-- The unit-height slice of a [4, n] array at row offset k, read at (·, b), is the array at (k, b). -/
theorem sliceRow_at {n : Nat} (k : Fin 4) (x : (⟨2, ![4, n]⟩ : Shape).Idx → α)
    (h : (⟨2, ![4, n]⟩ : Shape).Slices ![k.val, 0] ⟨2, ![1, n]⟩) (z : Fin 1) (b : Fin n) :
    extractStridedSlice (⟨2, ![1, n]⟩ : Shape) ![k.val, 0] x h (ix2 z b) = x (ix2 k b) :=
  extractStridedSlice_apply _ x h (ix2 z b) (ix2 k b) (fun c => match c with
    | ⟨0, _⟩ => by show k.val = k.val + z.val; omega
    | ⟨1, _⟩ => by show b.val = 0 + b.val; omega)

/-- An [m, 1] column broadcast to [m, n], read at (a, b), is the column at (a, 0). -/
theorem spreadCol_at {m n : Nat} (hm : m ≠ 1) (v : (⟨2, ![m, 1]⟩ : Shape).Idx → α)
    (h : (⟨2, ![m, 1]⟩ : Shape).Broadcasts ⟨2, ![m, n]⟩) (a : Fin m) (b : Fin n) :
    broadcastTo (⟨2, ![m, n]⟩ : Shape) v h (ix2 a b) = v (ix2 a 0) :=
  broadcastTo_apply v h (ix2 a b) (ix2 a 0) (fun c => match c with
    | ⟨0, _⟩ => by show a.val = if m = 1 then 0 else a.val; rw [if_neg hm]
    | ⟨1, _⟩ => by show (0 : Nat) = if (1 : Nat) = 1 then 0 else b.val; rw [if_pos rfl])

/-- A [1, n] row broadcast to [m, n], read at (a, b), is the row at (0, b). -/
theorem spreadRow_at {m n : Nat} (hn : n ≠ 1) (v : (⟨2, ![1, n]⟩ : Shape).Idx → α)
    (h : (⟨2, ![1, n]⟩ : Shape).Broadcasts ⟨2, ![m, n]⟩) (a : Fin m) (b : Fin n) :
    broadcastTo (⟨2, ![m, n]⟩ : Shape) v h (ix2 a b) = v (ix2 0 b) :=
  broadcastTo_apply v h (ix2 a b) (ix2 0 b) (fun c => match c with
    | ⟨0, _⟩ => by show (0 : Nat) = if (1 : Nat) = 1 then 0 else a.val; rw [if_pos rfl]
    | ⟨1, _⟩ => by show b.val = if n = 1 then 0 else b.val; rw [if_neg hn])

end Cert.LibFactorLayout
-- ==== Proof.KernelBlock.lean ====
/-
  What the body leaves in the result's buffer, entry by entry.

  The body slices its 1024 × 4 block of row factors into four columns and its 4 × 1024 block of column factors into
  four rows, broadcasts each to 1024 × 1024, and stores 0 - (c0·r0 + c1·r1) + c2·r2 + c3·r3. So entry (a, b) of what
  it stores is that sum of products of the row-factor block at (a, k) and the column-factor block at (k, b), k = 0 … 3.
-/
import proofs.«139554_j2559800508493_2_alg».proof.Proof.IdealRegion
import proofs.«139554_j2559800508493_2_alg».proof.Proof.Formula
import proofs.«139554_j2559800508493_2_alg».proof.Proof.LibFactorLayout
import Idealize.ShloMosaic.Lib.Pipeline.Value
import Idealize.ShloMosaic.Lib.ValueIdx

set_option maxRecDepth 16384

noncomputable section

namespace Cert.KernelIdeal.Block

open Idealize.ShloMosaic Idealize.ShloMosaic.ValueIdx
open Cert.KernelIdeal Cert.KernelIdeal.Gen Cert.KernelIdeal.Region Cert.LibFactorLayout

theorem hz : (![0, 0] : Fin 2 → Nat) = fun _ => 0 := funext fun a => by fin_cases a <;> rfl

/-- The body's stored value at (a, b), from the two blocks it loaded. -/
theorem payload_at (x0 : Vec Ideal S1024x4 .f32) (x1 : Vec Ideal S4x1024 .f32) (a b : Fin 1024) :
    k0_pay1 (F := Ideal) x0 x1 (ix2 a b)
      = Cert.Formula.combine (x0 (ix2 a 0)) (x0 (ix2 a 1)) (x0 (ix2 a 2)) (x0 (ix2 a 3))
          (x1 (ix2 0 b)) (x1 (ix2 1 b)) (x1 (ix2 2 b)) (x1 (ix2 3 b)) := by
  have hc := fun (v : S1024x1.Idx → EReal) (h : S1024x1.Broadcasts S1024x1024) =>
    spreadCol_at (m := 1024) (n := 1024) (by decide) v h a b
  have hr := fun (v : S1x1024.Idx → EReal) (h : S1x1024.Broadcasts S1024x1024) =>
    spreadRow_at (m := 1024) (n := 1024) (by decide) v h a b
  have sc0 : ∀ (x : S1024x4.Idx → EReal) (h : S1024x4.Slices ![0, 0] S1024x1),
      extractStridedSlice S1024x1 ![0, 0] x h (ix2 a 0) = x (ix2 a 0) := fun x h => sliceCol_at (m := 1024) 0 x h a 0
  have sr0 : ∀ (x : S4x1024.Idx → EReal) (h : S4x1024.Slices ![0, 0] S1x1024),
      extractStridedSlice S1x1024 ![0, 0] x h (ix2 0 b) = x (ix2 0 b) := fun x h => sliceRow_at (n := 1024) 0 x h 0 b
  have sc1 : ∀ (x : S1024x4.Idx → EReal) (h : S1024x4.Slices ![0, 1] S1024x1),
      extractStridedSlice S1024x1 ![0, 1] x h (ix2 a 0) = x (ix2 a 1) := fun x h => sliceCol_at (m := 1024) 1 x h a 0
  have sr1 : ∀ (x : S4x1024.Idx → EReal) (h : S4x1024.Slices ![1, 0] S1x1024),
      extractStridedSlice S1x1024 ![1, 0] x h (ix2 0 b) = x (ix2 1 b) := fun x h => sliceRow_at (n := 1024) 1 x h 0 b
  have sc2 : ∀ (x : S1024x4.Idx → EReal) (h : S1024x4.Slices ![0, 2] S1024x1),
      extractStridedSlice S1024x1 ![0, 2] x h (ix2 a 0) = x (ix2 a 2) := fun x h => sliceCol_at (m := 1024) 2 x h a 0
  have sr2 : ∀ (x : S4x1024.Idx → EReal) (h : S4x1024.Slices ![2, 0] S1x1024),
      extractStridedSlice S1x1024 ![2, 0] x h (ix2 0 b) = x (ix2 2 b) := fun x h => sliceRow_at (n := 1024) 2 x h 0 b
  have sc3 : ∀ (x : S1024x4.Idx → EReal) (h : S1024x4.Slices ![0, 3] S1024x1),
      extractStridedSlice S1024x1 ![0, 3] x h (ix2 a 0) = x (ix2 a 3) := fun x h => sliceCol_at (m := 1024) 3 x h a 0
  have sr3 : ∀ (x : S4x1024.Idx → EReal) (h : S4x1024.Slices ![3, 0] S1x1024),
      extractStridedSlice S1x1024 ![3, 0] x h (ix2 0 b) = x (ix2 3 b) := fun x h => sliceRow_at (n := 1024) 3 x h 0 b
  unfold k0_pay1
  simp only [shapeCast_self]
  show ((Ideal.ofBits .f32 0x00000000#32 - (_ * _ + _ * _)) + _ * _) + _ * _ = _
  rw [hc, hc, hc, hc, hr, hr, hr, hr, sc0, sc1, sc2, sc3, sr0, sr1, sr2, sr3]
  rfl

/-- What the body leaves in the result's buffer at (a, b). -/
theorem outBlock_at (x0 : Vec Ideal S1024x4 .f32) (x1 : Vec Ideal S4x1024 .f32) (a b : Fin 1024) :
    outBlock (F := Ideal) x0 x1 (ix2 a b)
      = Cert.Formula.combine (x0 (ix2 a 0)) (x0 (ix2 a 1)) (x0 (ix2 a 2)) (x0 (ix2 a 3))
          (x1 (ix2 0 b)) (x1 (ix2 1 b)) (x1 (ix2 2 b)) (x1 (ix2 3 b)) := by
  unfold outBlock
  rw [View.canon_unit_zero hz]
  simp only [View.ld_unit_zero (S := S1024x4) hz, View.ld_unit_zero (S := S4x1024) hz]
  exact payload_at x0 x1 a b

end Cert.KernelIdeal.Block

end
-- ==== Proof.KernelFactors.lean ====
/-
  The two factor arrays as the launch finds them, entry by entry.

  The host operations before the launch compute, elementwise in x = qx1[r] and y = qx2[q], the four row factors
  4x²·ex², ex², ex, x²·ex (ex = exp(-(x² + 1))) and the four column factors ey²·(1 + 2y²), ey²·(16y² + 32y⁴),
  ey·(7 + 28y²), ey (ey = exp(-2y²)), lay each out as a column (a row) and stack the four: entry (r, k) of the
  [8192, 4] array is row factor k at x = qx1[r], entry (k, q) of the [4, 8192] array column factor k at y = qx2[q].
-/
import proofs.«139554_j2559800508493_2_alg».proof.Proof.IdealRegion
import proofs.«139554_j2559800508493_2_alg».proof.Proof.Formula
import proofs.«139554_j2559800508493_2_alg».proof.Proof.LibFactorLayout
import Idealize.ShloMosaic.Lib.StableHlo.Run
import Idealize.ShloMosaic.Lib.ValueIdx

set_option maxRecDepth 16384

noncomputable section

namespace Cert.KernelIdeal.Factors

open Idealize.ShloMosaic Idealize.ShloMosaic.TcCoe Idealize.SL.Sem Idealize.ShloMosaic.ValueIdx Idealize.ShloMosaic.StableHlo
open Cert.KernelIdeal Cert.KernelIdeal.Gen Cert.KernelIdeal.Region Cert.LibFactorLayout

variable (m : (ℓ : Loc nD τ sig) → Buf (Elt Ideal) ℓ)

/-- Reads a buffer after the host operations as the operations' composed term of the argument arrays: each operation's
    result where it is the last to write the buffer, the stacked operands taken one by one. -/
local macro "host_term" : tactic =>
  `(tactic| (dsimp only [V, hostOps0]; after_results_simp; simp only [Matrix.cons_val]; after_results_simp))

/-- Entry (r, k) of the row-factor array is row factor k at x = qx1[r]. -/
theorem rows_at (c : Dev nD) (r : Fin 8192) (k : Fin 4) :
    (V (F := Ideal) m c main_v21 : S8192x4.Idx → EReal) (ix2 r k)
      = (![Cert.Formula.p1, Cert.Formula.p2, Cert.Formula.r1, Cert.Formula.r2] k) (m ((c.tc : Thread nD τ).loc main_arg0) (ix2 r 0)) := by
  have hs := reshape_at (n := 8192) (m ((c.tc : Thread nD τ).loc main_arg0)) shapeCasts_S8192x1_S8192 r
  host_term
  match k with
  | ⟨0, _⟩ =>
    refine (stackCols_at0 (n := 8192) _ _ _ _ _ r).trans ?_
    rw [asCol_at (n := 8192) (by decide), ← hs]; rfl
  | ⟨1, _⟩ =>
    refine (stackCols_at1 (n := 8192) _ _ _ _ _ r).trans ?_
    rw [asCol_at (n := 8192) (by decide), ← hs]; rfl
  | ⟨2, _⟩ =>
    refine (stackCols_at2 (n := 8192) _ _ _ _ _ r).trans ?_
    rw [asCol_at (n := 8192) (by decide), ← hs]; rfl
  | ⟨3, _⟩ =>
    refine (stackCols_at3 (n := 8192) _ _ _ _ _ r).trans ?_
    rw [asCol_at (n := 8192) (by decide), ← hs]; rfl

/-- Entry (k, q) of the column-factor array is column factor k at y = qx2[q]. -/
theorem cols_at (c : Dev nD) (k : Fin 4) (q : Fin 8192) :
    (V (F := Ideal) m c main_v43 : S4x8192.Idx → EReal) (ix2 k q)
      = (![Cert.Formula.q1, Cert.Formula.q2, Cert.Formula.s1, Cert.Formula.s2] k) (m ((c.tc : Thread nD τ).loc main_arg1) (ix2 q 0)) := by
  have hs := reshape_at (n := 8192) (m ((c.tc : Thread nD τ).loc main_arg1)) shapeCasts_S8192x1_S8192 q
  host_term
  match k with
  | ⟨0, _⟩ =>
    refine (stackRows_at0 (n := 8192) _ _ _ _ _ q).trans ?_
    rw [asRow_at (n := 8192) (by decide), ← hs]; rfl
  | ⟨1, _⟩ =>
    refine (stackRows_at1 (n := 8192) _ _ _ _ _ q).trans ?_
    rw [asRow_at (n := 8192) (by decide), ← hs]; rfl
  | ⟨2, _⟩ =>
    refine (stackRows_at2 (n := 8192) _ _ _ _ _ q).trans ?_
    rw [asRow_at (n := 8192) (by decide), ← hs]; rfl
  | ⟨3, _⟩ =>
    refine (stackRows_at3 (n := 8192) _ _ _ _ _ q).trans ?_
    rw [asRow_at (n := 8192) (by decide), ← hs]; rfl

end Cert.KernelIdeal.Factors

end
-- ==== Proof.KernelValue.lean ====
/-
  The result array after the launch, entry by entry: at (r, q) it is the kernel's sum of products at x = qx1[r], y = qx2[q].

  Grid point (i, j) writes back block (i, j) of the result: 1024 × 1024 entries computed from block i of the row
  factors and block j of the column factors. Entry (a, b) of that block is entry (1024·i + a, 1024·j + b) of the
  array, and the factor entries it reads are those of row 1024·i + a and column 1024·j + b. The 64 blocks tile the
  array, so every entry is written by exactly the point whose block holds it.
-/
import proofs.«139554_j2559800508493_2_alg».proof.Proof.IdealRegion
import proofs.«139554_j2559800508493_2_alg».proof.Proof.Formula
import proofs.«139554_j2559800508493_2_alg».proof.Proof.KernelBlock
import proofs.«139554_j2559800508493_2_alg».proof.Proof.KernelFactors
import Idealize.ShloMosaic.Lib.Pipeline.Value
import Idealize.ShloMosaic.Lib.ValueIdx

set_option maxRecDepth 16384

noncomputable section

namespace Cert.KernelIdeal.Result

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Region

variable (m : (ℓ : Loc nD τ sig) → Buf (Elt Ideal) ℓ) (ρ : Dev nD → PrngReg)

/-- The result as one function of the two argument arrays: at (r, q) the kernel's value at x = qx1[r], y = qx2[q]. -/
def G (a0 a1 : S8192x1.Idx → EReal) : S8192x8192.Idx → EReal :=
  fun i => Cert.Formula.kform (a0 (ix2 (i 0) 0)) (a1 (ix2 (i 1) 0))

/-- The factor arrays at any index. -/
theorem rows_any (c : Dev nD) (i : S8192x4.Idx) :
    (V (F := Ideal) m c main_v21 : S8192x4.Idx → EReal) i
      = (![Cert.Formula.p1, Cert.Formula.p2, Cert.Formula.r1, Cert.Formula.r2] (i 1)) (m ((c.tc : Thread nD τ).loc main_arg0) (ix2 (i 0) 0)) := by
  rw [eq_ix2 i]; exact Factors.rows_at m c (i 0) (i 1)
theorem cols_any (c : Dev nD) (i : S4x8192.Idx) :
    (V (F := Ideal) m c main_v43 : S4x8192.Idx → EReal) i
      = (![Cert.Formula.q1, Cert.Formula.q2, Cert.Formula.s1, Cert.Formula.s2] (i 0)) (m ((c.tc : Thread nD τ).loc main_arg1) (ix2 (i 1) 0)) := by
  rw [eq_ix2 i]; exact Factors.cols_at m c (i 0) (i 1)

/-- The block indices over the grid: the row factors' block moves with the result's block row, the column factors'
    with its block column, and neither moves along its short axis. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = win0_2.index t (1 : Fin 2) :=
  (by decide +kernel : ∀ t : Fin grid0.N, _)

/-- Every block of the 8 × 8 tiling is some point's. -/
theorem idx_onto : ∀ (q0 : Fin 8) (q1 : Fin 8), ∃ t : Fin cfg0.N, win0_2.index t = ![q0.val, q1.val] :=
  (by decide +kernel : ∀ (q0 : Fin 8) (q1 : Fin 8), ∃ t : Fin grid0.N, win0_2.index t = ![q0.val, q1.val])

/-- Entry y of what point t leaves in the result's buffer is G at the array index the block places y at. -/
theorem block_eq (c : Dev nD) (t : Fin cfg0.N) (y : S1024x1024.Idx) :
    outBlock (F := Ideal) (iblk m c 0 t) (iblk m c 1 t) y
      = G (m ((c.tc : Thread nD τ).loc main_arg0)) (m ((c.tc : Thread nD τ).loc main_arg1)) (((cfg0.win 2).blk t).view.emb y) := by
  obtain ⟨e0, e1, e2, e3⟩ := idx_facts t
  obtain ⟨a, b, rfl⟩ : ∃ (a b : Fin 1024), y = ix2 a b := ⟨y 0, y 1, eq_ix2 y⟩
  rw [Block.outBlock_at]
  -- each factor entry the body reads, as an entry of the factor array
  have hr : ∀ k : Fin 4, iblk (F := Ideal) m c 0 t (ix2 a k)
      = (![Cert.Formula.p1, Cert.Formula.p2, Cert.Formula.r1, Cert.Formula.r2] k)
          (m ((c.tc : Thread nD τ).loc main_arg0) (ix2 ((((cfg0.win 2).blk t).view.emb (ix2 a b)) 0) 0)) := fun k => by
    show (V (F := Ideal) m c main_v21 : S8192x4.Idx → EReal) (((cfg0.win 0).blk t).view.emb (ix2 a k)) = _
    rw [rows_any]
    have h1 : (((cfg0.win 0).blk t).view.emb (ix2 a k)) 1 = k := Fin.ext (by
      show win0_0.index t (1 : Fin 2) * 4 + 1 * k.val = k.val; omega)
    have h0 : (((cfg0.win 0).blk t).view.emb (ix2 a k)) 0 = (((cfg0.win 2).blk t).view.emb (ix2 a b)) 0 := Fin.ext (by
      show win0_0.index t (0 : Fin 2) * 1024 + 1 * a.val = win0_2.index t (0 : Fin 2) * 1024 + 1 * a.val; omega)
    rw [h0, h1]
  have hc : ∀ k : Fin 4, iblk (F := Ideal) m c 1 t (ix2 k b)
      = (![Cert.Formula.q1, Cert.Formula.q2, Cert.Formula.s1, Cert.Formula.s2] k)
          (m ((c.tc : Thread nD τ).loc main_arg1) (ix2 ((((cfg0.win 2).blk t).view.emb (ix2 a b)) 1) 0)) := fun k => by
    show (V (F := Ideal) m c main_v43 : S4x8192.Idx → EReal) (((cfg0.win 1).blk t).view.emb (ix2 k b)) = _
    rw [cols_any]
    have h0 : (((cfg0.win 1).blk t).view.emb (ix2 k b)) 0 = k := Fin.ext (by
      show win0_1.index t (0 : Fin 2) * 4 + 1 * k.val = k.val; omega)
    have h1 : (((cfg0.win 1).blk t).view.emb (ix2 k b)) 1 = (((cfg0.win 2).blk t).view.emb (ix2 a b)) 1 := Fin.ext (by
      show win0_1.index t (1 : Fin 2) * 1024 + 1 * b.val = win0_2.index t (1 : Fin 2) * 1024 + 1 * b.val; omega)
    rw [h0, h1]
  rw [hr 0, hr 1, hr 2, hr 3, hc 0, hc 1, hc 2, hc 3]
  rfl

/-- What point t writes back is block t of G. -/
theorem flushed_eq (c : Dev nD) (t : Fin cfg0.N) :
    (dats m 0 c).flushed 2 t
      = ((cfg0.win 2).blk t).view.read (Elt Ideal) (G (m ((c.tc : Thread nD τ).loc main_arg0)) (m ((c.tc : Thread nD τ).loc main_arg1))) := by
  show (cfg0.win 2).cut (grid0.coords t) ((dats m 0 c).after 2 t) = _
  rw [after_out]
  funext j
  exact block_eq m c t j

/-- An index of the result array is in point t's block iff each coordinate is in the block's range. -/
theorem mem_blk (t : Fin cfg0.N) (i : S8192x8192.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v44).slice (win0_2.rect t)).set ↔ _
  rw [View.set_slice_whole, Rect.mem_set_unit]
  exact Iff.rfl

/-- Every entry of the result is in the block of the point (⌊r / 1024⌋, ⌊q / 1024⌋). -/
theorem covered (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := idx_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- The result array after the launch is G of the argument arrays. -/
theorem final (c : Dev nD) :
    (dats m 0 c).arrAt 2 cfg0.N = G (m ((c.tc : Thread nD τ).loc main_arg0)) (m ((c.tc : Thread nD τ).loc main_arg1)) :=
  (dats m 0 c).arrAt_eq_of_cover 2 _ (fun t _ => flushed_eq m c t) covered

/-- Every weakly fair execution of the kernel's program terminates with the result at G of the arguments and the
    arguments unchanged. -/
theorem run : θ_run defs (onTc (τ := τ) (main (F := Ideal))) ⟨m, fun _ => 0, ρ⟩ fun r => ∀ c : Dev nD,
      r.2.mem ((c.tc : Thread nD τ).loc main_v44) = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
      ⟨((h c).1 2).trans (final m c),
       ((h c).2 main_arg0 (Pipeline.mem_restRefs_of main_arg0 (by decide) (by decide))).trans (V_main_arg0 m c),
       ((h c).2 main_arg1 (Pipeline.mem_restRefs_of main_arg1 (by decide) (by decide))).trans (V_main_arg1 m c),
       ((h c).2 main_arg2 (Pipeline.mem_restRefs_of main_arg2 (by decide) (by decide))).trans (V_main_arg2 m c)⟩)
    (run_main m ρ)

end Cert.KernelIdeal.Result

end
-- ==== Proof.RefValue.lean ====
/-
  The reference's result, entry by entry: at (r, q) it is the reference's expression of x = qx1[r] and y = qx2[q].

  Every operation of the reference is elementwise or a broadcast, so an entry of each stage is the same operation of
  one entry of each operand; the two reshaped-and-broadcast inputs read qx1 at (r, 0) and qx2 at (q, 0).
-/
import proofs.«139554_j2559800508493_2_alg».proof.Proof.Gen.ReferenceIdeal.Read
import proofs.«139554_j2559800508493_2_alg».proof.Proof.Formula
import Idealize.ShloMosaic.Lib.ValueIdx

set_option maxRecDepth 16384

noncomputable section

namespace Cert.ReferenceIdeal.RefValue

open Cert.ReferenceIdeal Cert.ReferenceIdeal.Read Idealize.ShloMosaic Idealize.ShloMosaic.ValueIdx

/-- The column vector x as the reference lays it out, [8192, 1]: its entry (r, ·) is qx1 at (r, 0). -/
theorem col_at (x0 : S8192x1.Idx → EReal) (j : S8192x1.Idx) :
    val_main_v1 (F := Ideal) x0 j = x0 (ix2 (j 0) 0) := by
  rw [val_main_v1_apply, val_main_v0_apply]
  refine congrArg x0 (funext fun a => ?_)
  match a with
  | ⟨0, _⟩ => exact Fin.ext (Nat.div_one _)
  | ⟨1, _⟩ => rfl

/-- The row vector y as the reference lays it out, [1, 8192]: its entry (·, q) is qx2 at (q, 0). -/
theorem row_at (x1 : S8192x1.Idx → EReal) (j : S1x8192.Idx) :
    val_main_v3 (F := Ideal) x1 j = x1 (ix2 (j 1) 0) := by
  rw [val_main_v3_apply, val_main_v2_apply]
  refine congrArg x1 (funext fun a => ?_)
  match a with
  | ⟨0, _⟩ => exact Fin.ext (Nat.div_one _)
  | ⟨1, _⟩ => rfl

/-- Entry (r, q) of the reference's result is its expression at x = qx1[r], y = qx2[q]. -/
theorem result_at (x0 x1 : S8192x1.Idx → EReal) (i : S8192x8192.Idx) :
    val_main_v57 (F := Ideal) x0 x1 i = Cert.Formula.rform (x0 (ix2 (i 0) 0)) (x1 (ix2 (i 1) 0)) := by
  simp only [val_main_v4_apply, val_main_v5_apply, val_main_cst_apply, val_main_v6_apply, val_main_v7_apply, val_main_v8_apply, val_main_v9_apply, val_main_v10_apply, val_main_cst_0_apply, val_main_v11_apply, val_main_v12_apply, val_main_v13_apply, val_main_v14_apply, val_main_v15_apply, val_main_cst_1_apply, val_main_v16_apply, val_main_v17_apply, val_main_v18_apply, val_main_v19_apply, val_main_v20_apply, val_main_cst_2_apply, val_main_v21_apply, val_main_v22_apply, val_main_v23_apply, val_main_v24_apply, val_main_v25_apply, val_main_cst_3_apply, val_main_v26_apply, val_main_v27_apply, val_main_v28_apply, val_main_v29_apply, val_main_cst_4_apply, val_main_v30_apply, val_main_v31_apply, val_main_v32_apply, val_main_v33_apply, val_main_v34_apply, val_main_cst_5_apply, val_main_v35_apply, val_main_v36_apply, val_main_v37_apply, val_main_v38_apply, val_main_v39_apply, val_main_cst_6_apply, val_main_v40_apply, val_main_v41_apply, val_main_cst_7_apply, val_main_v42_apply, val_main_v43_apply, val_main_v44_apply, val_main_v45_apply, val_main_cst_8_apply, val_main_v46_apply, val_main_v47_apply, val_main_v48_apply, val_main_v49_apply, val_main_v50_apply, val_main_v51_apply, val_main_v52_apply, val_main_cst_9_apply, val_main_v53_apply, val_main_v54_apply, val_main_v55_apply, val_main_v56_apply, val_main_v57_apply, col_at, row_at]
  simp only [Cert.Formula.rform, Cert.Formula.du11, Cert.Formula.du22, Cert.Formula.du2, Cert.Formula.uu,
    Ideal.mulf_def, Ideal.addf_def, Ideal.subf_def, Ideal.hostNegf_def, Ideal.negf_def, Ideal.hostUnary_exp_def, Ideal.ofBits_def]
  rfl

end Cert.ReferenceIdeal.RefValue

end
-- ==== Proof.Finite.lean ====
/-
  From the precondition to real entries: every entry of qx1 and of qx2 is a real number.

  The precondition is the conjunction, over the three argument arrays, of "every entry's absolute value is below +∞";
  on the extended reals |x| < +∞ excludes exactly x = +∞ and x = -∞.
-/
import proofs.«139554_j2559800508493_2_alg».proof.Pre_finite_inputs
import Idealize.ShloMosaic.PureOps.Ideal
import Idealize.ShloMosaic.PureOps.Ideal.Laws
import Idealize.ShloMosaic.Lib.ReduceAll
import Idealize.ShloMosaic.Lib.Affine

noncomputable section

namespace Cert.Finite

open Idealize.ShloMosaic Cert.Pre_finite_inputs

instance : Subsingleton S_.Idx := ⟨fun a b => funext fun d => d.elim0⟩

/-- The word of +∞ denotes the top element. -/
theorem inf_eq : Ideal.ofBits .f32 0x7F800000#32 = (⊤ : EReal) := by simp [Ideal.ofBits, Ideal.ieee]

/-- An extended real whose absolute value is below +∞ is a real. -/
theorem real_of_abs_lt (x : EReal) (h : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  rw [Ideal.cmpf_def, Ideal.ofBits_def, inf_eq] at h
  induction x using EReal.rec with
  | bot => exact absurd h (by simp [Ideal.cmp, FloatOps.hostAbsf, FloatOps.absf])
  | coe r => exact ⟨r, rfl⟩
  | top => exact absurd h (by simp [Ideal.cmp, FloatOps.hostAbsf, FloatOps.absf])

/-- Under the precondition every entry of the first two argument arrays is a real. -/
theorem real_of_pre [Facts] (a0 a1 : S8192x1.Idx → EReal) (a2 : S1.Idx → EReal)
    (h : fn (F := Ideal) a0 a1 a2 = fun _ => 1#1) :
    (∀ i, ∃ r : ℝ, a0 i = (r : EReal)) ∧ (∀ i, ∃ r : ℝ, a1 i = (r : EReal)) := by
  have h0 := congrFun h (fun d => d.elim0)
  dsimp only [fn] at h0
  obtain ⟨h01, -⟩ := IntOp.andi_eq_one.mp h0
  obtain ⟨hA, hB⟩ := IntOp.andi_eq_one.mp h01
  exact ⟨fun i => real_of_abs_lt _ (Host.reduce_andi_all _ _ _ _ _ hA i),
    fun i => real_of_abs_lt _ (Host.reduce_andi_all _ _ _ _ _ hB i)⟩

end Cert.Finite

end
-- ==== Proof.lean ====
/-
  The certificate of the separable outer-product kernel against its reference.

  Both programs compute, at entry (r, q) of an 8192 × 8192 array, a closed expression of x = qx1[r] and y = qx2[q].
  The reference evaluates it entry by entry from u = exp(-(x² + 2y² + 1)). The kernel computes four factors of x
  alone and four of y alone on the host (with exp(-(x² + 1)) and exp(-2y²)), stacks them into an [8192, 4] and a
  [4, 8192] array, and one launch over an 8 × 8 grid stores, block by block, -(p1·q1 + p2·q2) + r1·s1 + r2·s2.
  For real x and y the two expressions are equal (exp(a + b) = exp a · exp b, then a polynomial identity); the
  precondition makes every entry of qx1 and qx2 real.

  The frames: each kernel program runs through its host operations and its launch, whose body loads two blocks and
  stores one whole block at every grid point, and no operation writes an argument array; the reference is a list of
  host operations. The idealization rewrote nothing, so `preserves` has no conjunct.
-/
import proofs.«139554_j2559800508493_2_alg».proof.Defs
import proofs.«139554_j2559800508493_2_alg».proof.Proof.Gen.Kernel
import proofs.«139554_j2559800508493_2_alg».proof.Proof.Gen.KernelIdeal
import proofs.«139554_j2559800508493_2_alg».proof.Proof.Gen.ReferenceIdeal
import proofs.«139554_j2559800508493_2_alg».proof.Proof.Gen.Pre_finite_inputs
import proofs.«139554_j2559800508493_2_alg».proof.Proof.Gen.ReferenceIdeal.Run
import proofs.«139554_j2559800508493_2_alg».proof.Proof.Gen.ReferenceIdeal.Read
import proofs.«139554_j2559800508493_2_alg».proof.Proof.BitsRegion
import proofs.«139554_j2559800508493_2_alg».proof.Proof.IdealRegion
import proofs.«139554_j2559800508493_2_alg».proof.Proof.KernelValue
import proofs.«139554_j2559800508493_2_alg».proof.Proof.RefValue
import proofs.«139554_j2559800508493_2_alg».proof.Proof.Finite
import proofs.«139554_j2559800508493_2_alg».proof.Proof.Formula
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Region.frame m ρ

theorem frame_kernelIdeal : Cert.frame_KernelIdeal := fun m ρ _ => Cert.KernelIdeal.Region.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result at the kernel's sum of products of x = qx1[r] and y = qx2[q]: the kernel by
    its launch read block by block, the reference by its operations read entry by entry and the identity between the
    two expressions at the real numbers the precondition leaves. -/
theorem algebraic : Cert.algebraic_KernelIdeal_ReferenceIdeal := by
  intro m ρ m' ρ' hpre hagree
  refine ⟨fun c => Cert.KernelIdeal.Result.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v57_eq, (hagree c).1, (hagree c).2.1]
  funext i
  rw [Cert.ReferenceIdeal.RefValue.result_at]
  obtain ⟨hx, hy⟩ := Cert.Finite.real_of_pre _ _ _ (hpre c)
  obtain ⟨x, hx⟩ := hx (ix2 (i 0) 0)
  obtain ⟨y, hy⟩ := hy (ix2 (i 1) 0)
  show Cert.Formula.rform _ _ = Cert.Formula.kform _ _
  rw [hx, hy]
  exact (Cert.Formula.kform_eq_rform x y).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
